-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x512 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S512x512 : Shape := ⟨2, ![512, 512]⟩
abbrev S512 : Shape := ⟨1, ![512]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8x8192x512 .f32) (main_arg1 : FVec F S512x512 .f32) (main_arg2 : FVec F S512 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8x8192x512 : Shape := ⟨3, ![8, 8192, 512]⟩
abbrev S512x512 : Shape := ⟨2, ![512, 512]⟩
abbrev S512 : Shape := ⟨1, ![512]⟩
abbrev S65536x512 : Shape := ⟨2, ![65536, 512]⟩
abbrev S1x512 : Shape := ⟨2, ![1, 512]⟩
abbrev S2048x512 : Shape := ⟨2, ![2048, 512]⟩

abbrev nBuf : Space → Nat
  | .hbm => 8
  | .vmem => 6
  | .smem => 0
  | _ => 0

abbrev bufTy : (tb : Table) → Fin (tcTables nBuf tb) → BufTy
  | .hbm, ⟨0, _⟩ => ⟨S8x8192x512, .f32⟩
  | .hbm, ⟨1, _⟩ => ⟨S512x512, .f32⟩
  | .hbm, ⟨2, _⟩ => ⟨S512, .f32⟩
  | .hbm, ⟨3, _⟩ => ⟨S65536x512, .f32⟩
  | .hbm, ⟨4, _⟩ => ⟨S512x512, .f32⟩
  | .hbm, ⟨5, _⟩ => ⟨S1x512, .f32⟩
  | .hbm, ⟨6, _⟩ => ⟨S65536x512, .f32⟩
  | .hbm, ⟨7, _⟩ => ⟨S8x8192x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x8192x512_S65536x512 : S8x8192x512.ShapeCasts S65536x512
  transposes_S512x512_S512x512_1_0 : S512x512.Transposes [1, 0] S512x512
  shapeCasts_S512_S1x512 : S512.ShapeCasts S1x512
  shapeCasts_S65536x512_S8x8192x512 : S65536x512.ShapeCasts S8x8192x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S65536x512.size a
  hwx0_3 : ∀ i : grid0.Coords, EltTy.bits .f32 = 32 ∨ (Rect.block (s := S65536x512) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_call0_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8192x512 : Shape := ⟨3, ![8, 8192, 512]⟩
abbrev S512x512 : Shape := ⟨2, ![512, 512]⟩
abbrev S512 : Shape := ⟨1, ![512]⟩
abbrev S_ : Shape := ⟨0, ![]⟩
abbrev S1x1x512 : Shape := ⟨3, ![1, 1, 512]⟩

abbrev nBuf : Space → Nat
  | .hbm => 16
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .i1⟩
  | .hbm, ⟨7, _⟩ => ⟨S512x512, .f32⟩
  | .hbm, ⟨8, _⟩ => ⟨S_, .f32⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S8x8192x512, .f32⟩
  | .hbm, ⟨13, _⟩ => ⟨S1x1x512, .f32⟩
  | .hbm, ⟨14, _⟩ => ⟨S8x8192x512, .f32⟩
  | .hbm, ⟨15, _⟩ => ⟨S8x8192x512, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512_S1x1x512_2 : S512.BroadcastsInDim S1x1x512 (![2] : Fin 1 → Fin S1x1x512.rank)
  bcast_S1x1x512_S8x8192x512_0_1_2 : S1x1x512.BroadcastsInDim S8x8192x512 (![0, 1, 2] : Fin 3 → Fin S8x8192x512.rank)
  dot_S8x8192x512_S512x512_S8x8192x512_2_1_01_0_n_n_wf : DotDims.WF S8x8192x512 S512x512 S8x8192x512 [2] [1] [0, 1] [0] [] []

variable [Facts₀]

def dot_S8x8192x512_S512x512_S8x8192x512_2_1_01_0_n_n : DotDims S8x8192x512 S512x512 S8x8192x512 where
  lhsContracting := [2]
  rhsContracting := [1]
  lhsNonContracting := [0, 1]
  rhsNonContracting := [0]
  lhsBatch := []
  rhsBatch := []
  wf := dot_S8x8192x512_S512x512_S8x8192x512_2_1_01_0_n_n_wf

class Facts : Prop extends Facts₀ where

variable [Facts]
-- ==== Proof.Ternarize.lean ====
/-
  The mathematics both programs compute, stated once, over literal shapes, with no program in sight.

  A weight `w` is TERNARIZED: it becomes `0` when its magnitude `|w| = max w (-w)` lies strictly below the threshold, and
  its sign otherwise — `-1` below zero, `1` above, `0` at zero, the infinities counted with their side. The layer is

      out[b, s, o] = (Σ_k x[b, s, k] · tern(weight[o, k])) + bias[o]          (k over the 512 input features).

  Two spellings of ternarization occur. One selects on `|w| < threshold` between `0` and the order's sign of `w`. The
  other builds the sign first from comparisons — where `|w| > 0`, `-1` or `1` by whether `w < 0`, and `w` itself where
  `|w| = 0` (which is then `0`) — and selects afterwards. On the extended reals these are one function: `w < 0` gives
  `-1`, `0 < w` gives `1`, and `w = 0` gives `0` on both sides, `⊥` and `⊤` included. The threshold is the same number
  in both and is never evaluated. No law used here needs a finite argument.

  The same layer over the flattened rows r = 8192·b + s and the transposed weight is `rows`; `out` is `rows` read at
  row 8192·b + s, which is the reshape's row-major position.
-/
import Idealize.ShloMosaic.PureOps.Ideal
import Idealize.ShloMosaic.PureOps.Ideal.Laws
import Idealize.ShloMosaic.Lib.ValueIdx

noncomputable section

namespace Cert.TernaryLinear

open Idealize.ShloMosaic Idealize.ShloMosaic.ValueIdx

/-- The threshold: the single-precision number nearest 0.05, as the extended real it denotes. Both programs carry this
    one word, so its value is never needed. -/
def thr : EReal := Ideal.ofBits .f32 0x3D4CCCCD#32

/-- Ternarization of one weight: `0` where `|w| < thr`, the sign of `w` elsewhere. -/
def tern (w : EReal) : EReal := if max w (-w) < thr then 0 else Ideal.sign w

/-- A select on the comparison `x < y` is the conditional on `x < y`. -/
theorem select_lt {α : Type} (x y : EReal) (a b : α) :
    Scalar.select (Ideal.cmp .olt x y) a b = if x < y then a else b := by
  unfold Scalar.select Ideal.cmp
  by_cases h : x < y <;> simp [h]

/-- Selecting `0` where `|w| < thr` and the order's sign of `w` elsewhere IS ternarization. -/
theorem tern_of_sign (w : EReal) :
    Scalar.select (Ideal.cmp .olt (max w (-w)) thr) (Ideal.ofBits .f32 0x00000000#32) (Ideal.sign w) = tern w := by
  rw [select_lt, Ideal.ofBits_zero_f32]
  rfl

/-- The spelling that builds the sign from comparisons first (`-1` or `1` by `w < 0` where `|w| > 0`, else `w`) and then
    selects `0` where `|w| < thr`: the inner term is the order's sign of `w` at every extended real, so this is
    ternarization too. -/
theorem tern_of_comparisons (w : Ideal .f32) :
    Scalar.select (FloatOps.cmpf .olt (FloatOps.absf w) (Scalar.ofBits .f32 0x3D4CCCCD#32)) (Scalar.ofBits .f32 0x00000000#32)
        (Scalar.select (FloatOps.cmpf .ogt (FloatOps.absf w) (Scalar.ofBits .f32 0x00000000#32))
          (Scalar.select (FloatOps.cmpf .olt w (Scalar.ofBits .f32 0x00000000#32)) (Scalar.ofBits .f32 0xBF800000#32)
            (Scalar.ofBits .f32 0x3F800000#32)) w)
      = tern w := by
  rw [Ideal.jnp_sign_eq_sign_f32]
  exact tern_of_sign w

/-- The spelling that applies the host's absolute value and sign and selects: ternarization by definition of the two. -/
theorem tern_of_host (w : Ideal .f32) :
    Scalar.select (FloatOps.cmpf .olt (FloatOps.hostAbsf w) (FloatOps.ofBits .f32 0x3D4CCCCD#32)) (FloatOps.ofBits .f32 0x00000000#32)
        (FloatOps.hostUnary .sign w)
      = tern w :=
  tern_of_sign w

/-- The layer over flattened rows: `A` is the input with its two leading axes merged (65536 rows of 512 features), `Wt`
    the weight transposed (input feature first), `C` the bias as one row. -/
def rows (A : (⟨2, ![65536, 512]⟩ : Shape).Idx → EReal) (Wt : (⟨2, ![512, 512]⟩ : Shape).Idx → EReal)
    (C : (⟨2, ![1, 512]⟩ : Shape).Idx → EReal) : (⟨2, ![65536, 512]⟩ : Shape).Idx → EReal :=
  fun j => (∑ k : Fin 512, A (ix2 (j 0) k) * tern (Wt (ix2 k (j 1)))) + C (ix2 0 (j 1))

/-- The layer: `out[b, s, o] = (Σ_k x[b, s, k] · tern(weight[o, k])) + bias[o]`. -/
def out (X : (⟨3, ![8, 8192, 512]⟩ : Shape).Idx → EReal) (W : (⟨2, ![512, 512]⟩ : Shape).Idx → EReal)
    (B : (⟨1, ![512]⟩ : Shape).Idx → EReal) : (⟨3, ![8, 8192, 512]⟩ : Shape).Idx → EReal :=
  fun i => (∑ k : Fin 512, X (ix3 (i 0) (i 1) k) * tern (W (ix2 (i 2) k))) + B (ix1 (i 2))

/-- `rows` at explicit coordinates. -/
theorem rows_apply (A : (⟨2, ![65536, 512]⟩ : Shape).Idx → EReal) (Wt : (⟨2, ![512, 512]⟩ : Shape).Idx → EReal)
    (C : (⟨2, ![1, 512]⟩ : Shape).Idx → EReal) (r : Fin 65536) (q : Fin 512) :
    rows A Wt C (ix2 r q) = (∑ k : Fin 512, A (ix2 r k) * tern (Wt (ix2 k q))) + C (ix2 (0 : Fin 1) q) := rfl

/-- `out` at explicit coordinates. -/
theorem out_apply (X : (⟨3, ![8, 8192, 512]⟩ : Shape).Idx → EReal) (W : (⟨2, ![512, 512]⟩ : Shape).Idx → EReal)
    (B : (⟨1, ![512]⟩ : Shape).Idx → EReal) (b : Fin 8) (s : Fin 8192) (o : Fin 512) :
    out X W B (ix3 b s o) = (∑ k : Fin 512, X (ix3 b s k) * tern (W (ix2 o k))) + B (ix1 o) := rfl

end Cert.TernaryLinear

end
-- ==== Proof.KernelBlock.lean ====
/-
  What the kernel body stores, read at one element of its block.

  At a grid point the body loads a block of 2048 flattened input rows, the whole transposed weight and the one bias
  row, and stores one value: the matrix product of the input block with the ternarized weight, plus the bias row
  broadcast down the 2048 rows. Read at (p, q):

    * the product, accumulated into zero, is Σ_k block[p, k] · t[k, q], k over the one contracted axis of 512 (the left
      operand is read at (p, k), the right at (k, q));
    * t[k, q] is the weight element selected to zero where its magnitude lies below the threshold, and otherwise to the
      sign built from comparisons — ternarization; the two roundings to the narrower float format on the way into
      the product change nothing at exact values;
    * the broadcast bias row at (p, q) is the row's element q.

  The shape casts in the body are from a shape to itself.
-/
import proofs.«153478_j28312424415895_2_alg».proof.Proof.Gen.KernelIdeal.Skeleton
import proofs.«153478_j28312424415895_2_alg».proof.Proof.Ternarize
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.TernaryLinear

/-- The product's dimension numbers: rows of the left operand against columns of the right, one contracted axis. -/
abbrev D : DotDims S2048x512 S512x512 S2048x512 := dot_S2048x512_S512x512_S2048x512_1_0_0_1_n_n

theorem lhs_row (j : S2048x512.Idx) (q : D.contr.Idx) : (D.lhsIdx j q 0).val = (j 0).val := by
  unfold DotDims.lhsIdx
  rw [dif_neg (show ¬(0 : Fin S2048x512.rank) ∈ D.lhsBatch by decide), dif_pos (show (0 : Fin S2048x512.rank) ∈ D.lhsNonContracting by decide)]
  rfl
theorem lhs_contr (j : S2048x512.Idx) (q : D.contr.Idx) : (D.lhsIdx j q 1).val = (q ⟨0, by decide⟩).val :=
  D.lhsIdx_val_of_single rfl j q
theorem rhs_contr (j : S2048x512.Idx) (q : D.contr.Idx) : (D.rhsIdx j q 0).val = (q ⟨0, by decide⟩).val :=
  D.rhsIdx_val_of_single rfl j q
theorem rhs_col (j : S2048x512.Idx) (q : D.contr.Idx) : (D.rhsIdx j q 1).val = (j 1).val := by
  unfold DotDims.rhsIdx
  rw [dif_neg (show ¬(1 : Fin S512x512.rank) ∈ D.rhsBatch by decide), dif_pos (show (1 : Fin S512x512.rank) ∈ D.rhsNonContracting by decide)]
  rfl

/-- The product into the zero accumulator at (p, q): the sum over the contracted coordinate k of left[p, k] · right[k, q]. -/
theorem product_apply (a : FVec Ideal S2048x512 .bf16) (b : FVec Ideal S512x512 .bf16) (p : Fin 2048) (q : Fin 512) :
    matmul D none a b (constant S2048x512 .f32 0x00000000#32) (ix2 p q) = ∑ k : Fin 512, a (ix2 p k) * b (ix2 k q) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 p q) ((contrEquiv1 D 512 rfl rfl).symm k) = ix2 p k := funext fun ax => Fin.ext (by
    match ax with
    | ⟨0, _⟩ => exact lhs_row _ _
    | ⟨1, _⟩ => exact (lhs_contr _ _).trans hk)
  have er : D.rhsIdx (ix2 p q) ((contrEquiv1 D 512 rfl rfl).symm k) = ix2 k q := funext fun ax => Fin.ext (by
    match ax with
    | ⟨0, _⟩ => exact (rhs_contr _ _).trans hk
    | ⟨1, _⟩ => exact rhs_col _ _)
  rw [el, er]

/-- The body's stored value at (p, q), from the three loaded blocks. -/
theorem payload_apply (x0 : Vec Ideal S2048x512 .f32) (x1 : Vec Ideal S512x512 .f32) (x2 : Vec Ideal S1x512 .f32)
    (p : Fin 2048) (q : Fin 512) :
    k0_pay1 x0 x1 x2 (ix2 p q) = (∑ k : Fin 512, x0 (ix2 p k) * tern (x1 (ix2 k q))) + x2 (ix2 (0 : Fin 1) q) := by
  unfold k0_pay1
  simp only [shapeCast_self]
  refine (addf_apply _ _ _).trans ?_
  refine congrArg₂ (· + ·) ((product_apply _ _ p q).trans (Finset.sum_congr rfl fun k _ => ?_))
    (broadcastTo_1b_ab_apply x2 broadcasts_S1x512_S2048x512 p q)
  exact congrArg (x0 (ix2 p k) * ·) (tern_of_comparisons (x1 (ix2 k q)))

end Cert.KernelIdeal.Block

end
-- ==== Proof.KernelRows.lean ====
/-
  The array the kernel writes, after the run, is the layer over flattened rows.

  The grid has 32 points. At point t the input window holds rows 2048·t … 2048·t + 2047 of the flattened input (all 512
  columns), the weight window the whole transposed weight, the bias window the one bias row, and the output window
  is written back to rows 2048·t … 2048·t + 2047 of the result. So the element (p, q) of what point t writes back is

      Σ_k input[2048·t + p, k] · tern(weightᵀ[k, q]) + bias[0, q],

  which is the layer over flattened rows read at (2048·t + p, q): every block is a restriction of ONE function of the
  arrays the region finds. Row r lies in the block of the point whose block index is r / 2048, so the 32 blocks cover the
  65536 rows and the result array ends holding that function everywhere.
-/
import proofs.«153478_j28312424415895_2_alg».proof.Proof.Gen.KernelIdeal.Frame
import proofs.«153478_j28312424415895_2_alg».proof.Proof.KernelBlock
import Idealize.ShloMosaic.Lib.Pipeline.Value
import Idealize.ShloMosaic.Lib.ValueIdx

set_option maxRecDepth 16384

noncomputable section

namespace Cert.KernelIdeal.Rows

open Cert.KernelIdeal Cert.KernelIdeal.Gen Cert.KernelIdeal.Block Idealize.ShloMosaic Idealize.ShloMosaic.TcCoe
open Idealize.ShloMosaic.ValueIdx Idealize.SL.Sem Cert.TernaryLinear
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The block indices over the grid: the input window moves down the rows with the output window and stays in column
    block 0; the weight and bias windows stay at block (0, 0); the output's row block index is at most 31. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 31 ∧ win0_3.index t (1 : Fin 2) = 0 :=
  (by decide +kernel : ∀ t : Fin grid0.N, _)

/-- Every row block of the result is some point's. -/
theorem index_onto : ∀ b : Fin 32, ∃ t : Fin cfg0.N, win0_3.index t = ![b.val, 0] :=
  (by decide +kernel : ∀ b : Fin 32, ∃ t : Fin grid0.N, win0_3.index t = ![b.val, 0])

/-- The input window's block at point t, at (p, k), is the flattened input at row (block index)·2048 + p, column k. -/
theorem input_block_apply (c : Dev nD) (t : Fin cfg0.N) (p : Fin 2048) (k : Fin 512) (r : Fin 65536)
    (hr : r.val = win0_3.index t (0 : Fin 2) * 2048 + p.val) :
    (iblk m c 0 t : Vec Ideal S2048x512 .f32) (ix2 p k) = (V m c main_call0_v0 : S65536x512.Idx → EReal) (ix2 r k) := by
  obtain ⟨e0, e1, -, -, -, -, -, -⟩ := index_facts t
  unfold iblk
  rw [View.read_apply]
  show (V m c main_call0_v0 : S65536x512.Idx → EReal) _ = _
  refine congrArg (V m c main_call0_v0 : S65536x512.Idx → EReal) (funext fun a => Fin.ext ?_)
  match a with
  | ⟨0, _⟩ => show win0_0.index t (0 : Fin 2) * 2048 + 1 * p.val = r.val; omega
  | ⟨1, _⟩ => show win0_0.index t (1 : Fin 2) * 512 + 1 * k.val = k.val; omega

/-- The weight window's block at any point is the whole transposed weight. -/
theorem weight_block_apply (c : Dev nD) (t : Fin cfg0.N) (k q : Fin 512) :
    (iblk m c 1 t : Vec Ideal S512x512 .f32) (ix2 k q) = (V m c main_call0_v1 : S512x512.Idx → EReal) (ix2 k q) := by
  obtain ⟨-, -, e2, e3, -, -, -, -⟩ := index_facts t
  unfold iblk
  rw [View.read_apply]
  show (V m c main_call0_v1 : S512x512.Idx → EReal) _ = _
  refine congrArg (V m c main_call0_v1 : S512x512.Idx → EReal) (funext fun a => Fin.ext ?_)
  match a with
  | ⟨0, _⟩ => show win0_1.index t (0 : Fin 2) * 512 + 1 * k.val = k.val; omega
  | ⟨1, _⟩ => show win0_1.index t (1 : Fin 2) * 512 + 1 * q.val = q.val; omega

/-- The bias window's block at any point is the one bias row. -/
theorem bias_block_apply (c : Dev nD) (t : Fin cfg0.N) (q : Fin 512) :
    (iblk m c 2 t : Vec Ideal S1x512 .f32) (ix2 (0 : Fin 1) q) = (V m c main_call0_v2 : S1x512.Idx → EReal) (ix2 (0 : Fin 1) q) := by
  obtain ⟨-, -, -, -, e4, e5, -, -⟩ := index_facts t
  unfold iblk
  rw [View.read_apply]
  show (V m c main_call0_v2 : S1x512.Idx → EReal) _ = _
  refine congrArg (V m c main_call0_v2 : S1x512.Idx → EReal) (funext fun a => Fin.ext ?_)
  match a with
  | ⟨0, _⟩ => show win0_2.index t (0 : Fin 2) * 1 + 1 * 0 = 0; omega
  | ⟨1, _⟩ => show win0_2.index t (1 : Fin 2) * 512 + 1 * q.val = q.val; omega

/-- WHAT POINT t WRITES BACK is block t of the layer over flattened rows, of the arrays as the region finds them. -/
theorem flushed_eq (c : Dev nD) (t : Fin cfg0.N) :
    (dats m 0 c).flushed 3 t = ((cfg0.win 3).blk t).view.read (Elt Ideal)
      (rows (V m c main_call0_v0) (V m c main_call0_v1) (V m c main_call0_v2)) := by
  show (cfg0.win 3).cut (grid0.coords t) ((dats m 0 c).after 3 t) = _
  rw [after0_3]
  unfold out0_3
  rw [View.canon_unit_zero origin]
  simp only [View.ld_unit_zero (S := S2048x512) origin, View.ld_unit_zero (S := S512x512) origin, View.ld_unit_zero (S := S1x512) origin]
  obtain ⟨-, -, -, -, -, -, e6, e7⟩ := index_facts t
  funext j
  obtain ⟨p, q, rfl⟩ : ∃ (p : Fin 2048) (q : Fin 512), j = ix2 p q := ⟨j 0, j 1, eq_ix2 j⟩
  have hp : p.val < 2048 := p.isLt
  have hr : win0_3.index t (0 : Fin 2) * 2048 + p.val < 65536 := by omega
  have hemb : ((cfg0.win 3).blk t).view.emb (ix2 p q) = (ix2 (⟨_, hr⟩ : Fin 65536) q : S65536x512.Idx) := funext fun a => Fin.ext (by
    match a with
    | ⟨0, _⟩ => show win0_3.index t (0 : Fin 2) * 2048 + 1 * p.val = win0_3.index t (0 : Fin 2) * 2048 + p.val; omega
    | ⟨1, _⟩ => show win0_3.index t (1 : Fin 2) * 512 + 1 * q.val = q.val; omega)
  rw [View.read_apply, hemb, rows_apply]
  refine (payload_apply _ _ _ p q).trans ?_
  refine congrArg₂ (· + ·) (Finset.sum_congr rfl fun k _ => ?_) (bias_block_apply m c t q)
  exact congrArg₂ (· * ·) (input_block_apply m c t p k ⟨_, hr⟩ rfl) (congrArg tern (weight_block_apply m c t k q))

/-- An index of the result array is in point t's block iff each coordinate is in the block's range on its axis. -/
theorem mem_block (t : Fin cfg0.N) (i : S65536x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_call0_v3).slice (win0_3.rect t)).set ↔ _
  rw [View.set_slice_whole, Rect.mem_set_unit]
  exact Iff.rfl

/-- Every index of the result array is in the block some point writes back: row r in the block with index r / 2048. -/
theorem covered (i : S65536x512.Idx) : ∃ t : Fin cfg0.N, (cfg0.win 3).flush t = true ∧ i ∈ ((cfg0.win 3).blk t).view.set := by
  have hi0 : (i 0).val < 65536 := (i 0).isLt
  have hi1 : (i 1).val < 512 := (i 1).isLt
  obtain ⟨t, ht⟩ := index_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- THE RESULT ARRAY after the run: the layer over flattened rows, of the arrays as the region finds them. -/
theorem final (c : Dev nD) :
    (dats m 0 c).arrAt 3 cfg0.N = rows (V m c main_call0_v0) (V m c main_call0_v1) (V m c main_call0_v2) :=
  (dats m 0 c).arrAt_eq_of_cover 3 _ (fun t _ => flushed_eq m c t) covered

end Cert.KernelIdeal.Rows

end
-- ==== Proof.Flatten.lean ====
/-
  The layer over flattened rows, reshaped back, is the layer.

  Merging the two leading axes of the input sends (b, s, k) to row 8192·b + s, column k: both have row-major position
  (8192·b + s)·512 + k. Transposing the weight sends (o, k) to (k, o). The bias as one row has bias[o] at (0, o). So the
  layer over flattened rows at (8192·b + s, o) is Σ_k x[b, s, k] · tern(weight[o, k]) + bias[o], and splitting the row
  axis again — (b, s, o) and row 8192·b + s, column o share the row-major position (8192·b + s)·512 + o — gives the
  layer at (b, s, o). Only the positions' arithmetic is used.
-/
import proofs.«153478_j28312424415895_2_alg».proof.Proof.Ternarize
import Idealize.ShloMosaic.Lib.Pipeline.Value
import Idealize.ShloMosaic.Lib.ValueIdx
import Idealize.ShloMosaic.Lib.ValueLayout

noncomputable section

namespace Cert.TernaryLinear

open Idealize.ShloMosaic Idealize.ShloMosaic.ValueIdx

/-- The flattened input at (8192·b + s, k) is the input at (b, s, k). -/
theorem flat_apply (X : (⟨3, ![8, 8192, 512]⟩ : Shape).Idx → EReal)
    (h : (⟨3, ![8, 8192, 512]⟩ : Shape).ShapeCasts ⟨2, ![65536, 512]⟩) (b : Fin 8) (s : Fin 8192) (k : Fin 512) (r : Fin 65536)
    (hr : r.val = b.val * 8192 + s.val) :
    shapeCast ⟨2, ![65536, 512]⟩ X h (ix2 r k) = X (ix3 b s k) := by
  refine shapeCast_apply X h (ix2 r k) (ix3 b s k) ?_
  rw [Shape.rowMajor_val_two, Shape.rowMajor_val_three]
  show (b.val * 8192 + s.val) * 512 + k.val = r.val * 512 + k.val
  rw [hr]

/-- The layer over the flattened input, the transposed weight and the bias row, with its row axis split again, is the
    layer. -/
theorem rows_reshaped (X : (⟨3, ![8, 8192, 512]⟩ : Shape).Idx → EReal) (W : (⟨2, ![512, 512]⟩ : Shape).Idx → EReal)
    (B : (⟨1, ![512]⟩ : Shape).Idx → EReal)
    (h1 : (⟨3, ![8, 8192, 512]⟩ : Shape).ShapeCasts ⟨2, ![65536, 512]⟩)
    (h2 : (⟨2, ![512, 512]⟩ : Shape).Transposes [1, 0] ⟨2, ![512, 512]⟩)
    (h3 : (⟨1, ![512]⟩ : Shape).ShapeCasts ⟨2, ![1, 512]⟩)
    (h4 : (⟨2, ![65536, 512]⟩ : Shape).ShapeCasts ⟨3, ![8, 8192, 512]⟩) :
    shapeCast ⟨3, ![8, 8192, 512]⟩
        (rows (shapeCast ⟨2, ![65536, 512]⟩ X h1) (transpose ⟨2, ![512, 512]⟩ [1, 0] W h2) (shapeCast ⟨2, ![1, 512]⟩ B h3)) h4
      = out X W B := by
  funext i
  obtain ⟨b, s, o, rfl⟩ : ∃ (b : Fin 8) (s : Fin 8192) (o : Fin 512), i = ix3 b s o := ⟨i 0, i 1, i 2, eq_ix3 i⟩
  have hb : b.val < 8 := b.isLt
  have hs : s.val < 8192 := s.isLt
  have hr : b.val * 8192 + s.val < 65536 := by omega
  refine (shapeCast_apply _ h4 (ix3 b s o) (ix2 (⟨_, hr⟩ : Fin 65536) o) ?_).trans ?_
  · rw [Shape.rowMajor_val_two, Shape.rowMajor_val_three]
    rfl
  rw [rows_apply, out_apply]
  refine congrArg₂ (· + ·) (Finset.sum_congr rfl fun k _ => ?_) (shapeCast_a_1a_apply B h3 0 o)
  exact congrArg₂ (· * ·) (flat_apply X h1 b s k ⟨_, hr⟩ rfl) (congrArg tern (transpose_ix2_apply W h2 k o))

end Cert.TernaryLinear

end
-- ==== Proof.KernelIsLayer.lean ====
/-
  The kernel's program computes the layer.

  Before the region the host flattens the input's two leading axes, transposes the weight and writes the bias as one
  row; these three arrays are what the region's windows read. After the region the host splits the result's row axis
  again. The region leaves the layer over flattened rows of those three arrays in its result array, so the program's
  result is that function with its row axis split, of the flattened input, the transposed weight and the bias row —
  which is the layer of the three argument arrays. The argument arrays are not written.
-/
import proofs.«153478_j28312424415895_2_alg».proof.Proof.Gen.KernelIdeal.Frame
import proofs.«153478_j28312424415895_2_alg».proof.Proof.KernelRows
import proofs.«153478_j28312424415895_2_alg».proof.Proof.Flatten
import Idealize.ShloMosaic.Lib.StableHlo.Run

set_option maxRecDepth 16384

noncomputable section

namespace Cert.KernelIdeal.Layer

open Cert.KernelIdeal Cert.KernelIdeal.Gen Idealize.ShloMosaic Idealize.ShloMosaic.TcCoe
open Idealize.SL.Sem Cert.TernaryLinear
open Idealize.ShloMosaic.Pipeline (Dat)

variable (m : (ℓ : Loc nD τ sig) → Buf (Elt Ideal) ℓ) (ρ : Dev nD → PrngReg)

/-- The input window's array, as the region finds it: the input with its two leading axes merged. -/
theorem flat_input (c : Dev nD) : (V m c main_call0_v0 : S65536x512.Idx → EReal)
    = shapeCast S65536x512 (m ((c : Thread nD τ).loc main_arg0)) shapeCasts_S8x8192x512_S65536x512 := by
  show StableHlo.after hostOps0 (fun b => m (c, b)) (Proc.devRef .tc main_call0_v0) = _
  after_results
  try rfl

/-- The weight window's array: the weight transposed. -/
theorem transposed_weight (c : Dev nD) : (V m c main_call0_v1 : S512x512.Idx → EReal)
    = transpose S512x512 [1, 0] (m ((c : Thread nD τ).loc main_arg1)) transposes_S512x512_S512x512_1_0 := by
  show StableHlo.after hostOps0 (fun b => m (c, b)) (Proc.devRef .tc main_call0_v1) = _
  after_results
  try rfl

/-- The bias window's array: the bias as one row. -/
theorem bias_row (c : Dev nD) : (V m c main_call0_v2 : S1x512.Idx → EReal)
    = shapeCast S1x512 (m ((c : Thread nD τ).loc main_arg2)) shapeCasts_S512_S1x512 := by
  show StableHlo.after hostOps0 (fun b => m (c, b)) (Proc.devRef .tc main_call0_v2) = _
  after_results
  try rfl

/-- What the host's last operation leaves in the program's result: the region's result array with its row axis split. -/
theorem tail_eq (c : Dev nD) : (Pipeline.afterTail₀ cfgs (dats m) 0 (V0 m) [hostOps1] c main_v0 : S8x8192x512.Idx → EReal)
    = shapeCast S8x8192x512 ((dats m 0 c).arrAt 3 cfg0.N) shapeCasts_S65536x512_S8x8192x512 := by
  unfold Pipeline.afterTail₀
  show StableHlo.after hostOps1 _ (Proc.devRef .tc main_v0) = _
  after_results
  funext i
  show shapeCast S8x8192x512 (Pipeline.withArrays spec0 c (V0 m c) (fun w => (dats m 0 c).arrAt w cfg0.N) (Proc.devRef .tc (Pipeline.arrRef spec0 3))) _ i = _
  rw [Pipeline.withArrays_arr spec0 launch0.win.arr_inj c _ _ 3]

/-- The program's result is the layer of the argument arrays. -/
theorem result_eq (c : Dev nD) : (Pipeline.afterTail₀ cfgs (dats m) 0 (V0 m) [hostOps1] c main_v0 : S8x8192x512.Idx → EReal)
    = out (m ((c : Thread nD τ).loc main_arg0)) (m ((c : Thread nD τ).loc main_arg1)) (m ((c : Thread nD τ).loc main_arg2)) := by
  rw [tail_eq, Rows.final, flat_input, transposed_weight, bias_row]
  exact rows_reshaped _ _ _ _ _ _ _

/-- The run, read: every weakly fair execution terminates with the result at the layer of the argument arrays and the
    argument arrays as launched. -/
theorem run : θ_run defs (onTc (τ := τ) (main (F := Ideal))) ⟨m, fun _ => 0, ρ⟩ fun r => ∀ c : Dev nD,
      r.2.mem ((c.tc : Thread nD τ).loc main_v0)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Layer

end
-- ==== Proof.ReferenceIsLayer.lean ====
/-
  The reference computes the layer.

  Read one stage at a time at an output index (b, s, o): the final sum is the contraction's element plus the bias
  broadcast's element. The contraction's element is Σ_k x[b, s, k] · t[o, k], where t is the selected array; t[o, k] is
  the select, on |weight[o, k]| < threshold, between the zero constant's broadcast and the sign of weight[o, k] —
  ternarization as the host spells it. The bias is broadcast along the two leading axes, so its element at (b, s, o) is
  bias[o]. Every index function of the stages computes to the coordinates named here.
-/
import proofs.«153478_j28312424415895_2_alg».proof.Proof.Gen.ReferenceIdeal.Read
import proofs.«153478_j28312424415895_2_alg».proof.Proof.Ternarize

noncomputable section

namespace Cert.ReferenceIdeal.Layer

open Cert.ReferenceIdeal Cert.ReferenceIdeal.Read Idealize.ShloMosaic Idealize.ShloMosaic.ValueIdx Cert.TernaryLinear

/-- The selected array at an index is the ternarized weight there. -/
theorem selected_apply (W : (⟨S512x512, .f32⟩ : BufTy).Contents (Elt Ideal)) (j : S512x512.Idx) :
    val_main_v4 (F := Ideal) W j = tern (W j) := by
  rw [val_main_v4_apply, val_main_v2_apply, val_main_v0_apply, val_main_v1_apply, val_main_cst_apply,
    val_main_call0_v1_apply, val_main_call0_v0_apply, val_main_cst_0_apply, val_main_v3_apply]
  exact tern_of_host (W j)

/-- The contraction reads the input at (b, s, k) … -/
theorem lhs_index (i : S8x8192x512.Idx) (k : Fin 512) : lidx_main_v5 i k = ix3 (i 0) (i 1) k :=
  funext fun a => by match a with | ⟨0, _⟩ => rfl | ⟨1, _⟩ => rfl | ⟨2, _⟩ => rfl

/-- … and the selected array at (o, k). -/
theorem rhs_index (i : S8x8192x512.Idx) (k : Fin 512) : ridx_main_v5 i k = ix2 (i 2) k :=
  funext fun a => by match a with | ⟨0, _⟩ => rfl | ⟨1, _⟩ => rfl

/-- The twice-broadcast bias at (b, s, o) is read at o. -/
theorem bias_index (i : S8x8192x512.Idx) : idx_main_v6 (idx_main_v7 i) = ix1 (i 2) :=
  funext fun a => by match a with | ⟨0, _⟩ => rfl

/-- The reference's result, as a function of its three argument arrays, is the layer. -/
theorem reference_eq (X : (⟨S8x8192x512, .f32⟩ : BufTy).Contents (Elt Ideal)) (W : (⟨S512x512, .f32⟩ : BufTy).Contents (Elt Ideal))
    (B : (⟨S512, .f32⟩ : BufTy).Contents (Elt Ideal)) :
    val_main_v8 (F := Ideal) X W B = out X W B := by
  funext i
  rw [val_main_v8_apply, val_main_v5_apply, val_main_v7_apply, val_main_v6_apply, bias_index]
  show (∑ k : Fin 512, X (lidx_main_v5 i k) * val_main_v4 (F := Ideal) W (ridx_main_v5 i k)) + B (ix1 (i 2)) = _
  unfold out
  refine congrArg (· + B (ix1 (i 2))) (Finset.sum_congr rfl fun k _ => ?_)
  rw [lhs_index, rhs_index]
  exact congrArg (fun z => X (ix3 (i 0) (i 1) k) * z) (selected_apply W (ix2 (i 2) k))

end Cert.ReferenceIdeal.Layer

end
-- ==== Proof.lean ====
/-
  A ternary linear layer: the weight matrix is ternarized — an entry becomes 0 when its magnitude lies strictly below
  the threshold and its sign (−1, 0 or 1) otherwise — and the layer is

      out[b, s, o] = Σ_k x[b, s, k] · tern(weight[o, k]) + bias[o].

  The kernel's program flattens the input to 65536 rows, transposes the weight, and computes 2048 rows per grid point as
  one matrix product with the ternarized transposed weight plus the bias row; the reference ternarizes the weight and
  contracts it with the input directly. At exact values both are the function above of the three argument arrays
  (Proof/KernelIsLayer.lean, Proof/ReferenceIsLayer.lean, over Proof/Ternarize.lean): the two spellings of the sign
  agree at every extended real, the roundings into the product's narrower format are the identity, and the two
  contractions run over the same 512 products. Nothing needs a finite input, so the precondition is never opened.

  The kernel's idealization replaces one window of word operations — 1.0 carrying the weight's sign bit — by a select
  on `weight < 0` between −1 and 1: that rule's statement at the weight's shape is the one conjunct of `preserves`.
-/
import proofs.«153478_j28312424415895_2_alg».proof.Defs
import proofs.«153478_j28312424415895_2_alg».proof.Proof.Gen.Kernel
import proofs.«153478_j28312424415895_2_alg».proof.Proof.Gen.Kernel.Skeleton
import proofs.«153478_j28312424415895_2_alg».proof.Proof.Gen.Kernel.Launch
import proofs.«153478_j28312424415895_2_alg».proof.Proof.Gen.Kernel.Points
import proofs.«153478_j28312424415895_2_alg».proof.Proof.Gen.Kernel.Frame
import proofs.«153478_j28312424415895_2_alg».proof.Proof.Gen.KernelIdeal
import proofs.«153478_j28312424415895_2_alg».proof.Proof.Gen.KernelIdeal.Skeleton
import proofs.«153478_j28312424415895_2_alg».proof.Proof.Gen.KernelIdeal.Launch
import proofs.«153478_j28312424415895_2_alg».proof.Proof.Gen.KernelIdeal.Points
import proofs.«153478_j28312424415895_2_alg».proof.Proof.Gen.KernelIdeal.Frame
import proofs.«153478_j28312424415895_2_alg».proof.Proof.Gen.ReferenceIdeal
import proofs.«153478_j28312424415895_2_alg».proof.Proof.Gen.Pre_finite_inputs
import proofs.«153478_j28312424415895_2_alg».proof.Proof.Gen.ReferenceIdeal.Run
import proofs.«153478_j28312424415895_2_alg».proof.Proof.Gen.ReferenceIdeal.Read
import proofs.«153478_j28312424415895_2_alg».proof.Proof.KernelIsLayer
import proofs.«153478_j28312424415895_2_alg».proof.Proof.ReferenceIsLayer
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one rewrite of the idealization: 1.0 with the weight's sign bit, read at exact values as −1 below zero and 1
    elsewhere, and at the word level as the pattern the three word operations build. -/
theorem preserves : Cert.preserves_Kernel_KernelIdeal :=
  IdealRules.sign_bit.statement Cert.KernelIdeal.S512x512 .f32

/-- Both programs end with their result at the layer of the argument arrays, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.TernaryLinear.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Layer.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
